-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x8192 : Shape := ⟨3, ![8, 2048, 8192]⟩
abbrev S8192x8000 : Shape := ⟨2, ![8192, 8000]⟩
abbrev S_ : Shape := ⟨0, ![]⟩

class Facts : Prop where
  bcast_S_S8x2048x8192 : S_.BroadcastsInDim S8x2048x8192 (![] : Fin 0 → Fin S8x2048x8192.rank)
  reducesTo_S8x2048x8192_S_d0_1_2 : S8x2048x8192.ReducesTo [0, 1, 2] S_
  h_S_ : 0 < S_.numel
  bcast_S_S8192x8000 : S_.BroadcastsInDim S8192x8000 (![] : Fin 0 → Fin S8192x8000.rank)
  reducesTo_S8192x8000_S_d0_1 : S8192x8000.ReducesTo [0, 1] S_

variable [Facts]

def fn {F : FTy → Type} [FloatOps F] (main_arg0 : FVec F S8x2048x8192 .f32) (main_arg1 : FVec F S8192x8000 .f32) : IVec S_ 1 :=
  let main_v0 : FVec F S8x2048x8192 .f32 := Host.absf main_arg0
  let main_cst : FVec F S_ .f32 := constant S_ .f32 0x7F800000#32
  let main_v1 : FVec F S8x2048x8192 .f32 := broadcastInDim S8x2048x8192 ![] bcast_S_S8x2048x8192 main_cst
  let main_v2 : IVec S8x2048x8192 1 := cmpf .olt main_v0 main_v1
  let main_c : IVec S_ 1 := constantI S_ 1 1#1
  let main_v3 : IVec S_ 1 := (fun x v => Host.reduce IntOp.andi x v reducesTo_S8x2048x8192_S_d0_1_2 h_S_) main_v2 main_c
  let main_v4 : FVec F S8192x8000 .f32 := Host.absf main_arg1
  let main_cst_0 : FVec F S_ .f32 := constant S_ .f32 0x7F800000#32
  let main_v5 : FVec F S8192x8000 .f32 := broadcastInDim S8192x8000 ![] bcast_S_S8192x8000 main_cst_0
  let main_v6 : IVec S8192x8000 1 := cmpf .olt main_v4 main_v5
  let main_c_1 : IVec S_ 1 := constantI S_ 1 1#1
  let main_v7 : IVec S_ 1 := (fun x v => Host.reduce IntOp.andi x v reducesTo_S8192x8000_S_d0_1 h_S_) main_v6 main_c_1
  let main_v8 : IVec S_ 1 := andi main_v3 main_v7
  main_v8
-- ==== Kernel.lean ====
abbrev S8x2048x8192 : Shape := ⟨3, ![8, 2048, 8192]⟩
abbrev S8192x8000 : Shape := ⟨2, ![8192, 8000]⟩
abbrev S8x2046x8192 : Shape := ⟨3, ![8, 2046, 8192]⟩
abbrev S16368x8192 : Shape := ⟨2, ![16368, 8192]⟩
abbrev S_ : Shape := ⟨0, ![]⟩
abbrev S16384x8192 : Shape := ⟨2, ![16384, 8192]⟩
abbrev S8192x8192 : Shape := ⟨2, ![8192, 8192]⟩
abbrev S1024x512 : Shape := ⟨2, ![1024, 512]⟩
abbrev S512x2048 : Shape := ⟨2, ![512, 2048]⟩
abbrev S1024x2048 : Shape := ⟨2, ![1024, 2048]⟩
abbrev S16368x8000 : Shape := ⟨2, ![16368, 8000]⟩
abbrev S8x2046x8000 : Shape := ⟨3, ![8, 2046, 8000]⟩

abbrev nBuf : Space → Nat
  | .hbm => 15
  | .vmem => 7
  | .smem => 0
  | _ => 0

abbrev bufTy : (tb : Table) → Fin (tcTables nBuf tb) → BufTy
  | .hbm, ⟨0, _⟩ => ⟨S8x2048x8192, .f32⟩
  | .hbm, ⟨1, _⟩ => ⟨S8192x8000, .f32⟩
  | .hbm, ⟨2, _⟩ => ⟨S8x2046x8192, .f32⟩
  | .hbm, ⟨3, _⟩ => ⟨S16368x8192, .f32⟩
  | .hbm, ⟨4, _⟩ => ⟨S_, .i32⟩
  | .hbm, ⟨5, _⟩ => ⟨S_, .f32⟩
  | .hbm, ⟨6, _⟩ => ⟨S16384x8192, .f32⟩
  | .hbm, ⟨7, _⟩ => ⟨S16384x8192, .bf16⟩
  | .hbm, ⟨8, _⟩ => ⟨S_, .i32⟩
  | .hbm, ⟨9, _⟩ => ⟨S_, .f32⟩
  | .hbm, ⟨10, _⟩ => ⟨S8192x8192, .f32⟩
  | .hbm, ⟨11, _⟩ => ⟨S8192x8192, .bf16⟩
  | .hbm, ⟨12, _⟩ => ⟨S16384x8192, .f32⟩
  | .hbm, ⟨13, _⟩ => ⟨S16368x8000, .f32⟩
  | .hbm, ⟨14, _⟩ => ⟨S8x2046x8000, .f32⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  slices_S8x2048x8192_S8x2046x8192_0_1_0 : S8x2048x8192.Slices ![0, 1, 0] S8x2046x8192
  shapeCasts_S8x2046x8192_S16368x8192 : S8x2046x8192.ShapeCasts S16368x8192
  pads_S16368x8192_S16384x8192_0160_000 : S16368x8192.Pads (![0, 0] : Fin 2 → Nat) ![16, 0] ![0, 0] S16384x8192
  h_S_ : 0 < S_.numel
  bitsLt_bf16_f32 : FTy.bits .bf16 < FTy.bits .f32
  pads_S8192x8000_S8192x8192_000_01920 : S8192x8000.Pads (![0, 0] : Fin 2 → Nat) ![0, 192] ![0, 0] S8192x8192
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  slices_S16384x8192_S16368x8000_0_0 : S16384x8192.Slices ![0, 0] S16368x8000
  shapeCasts_S16368x8000_S8x2046x8000 : S16368x8000.ShapeCasts S8x2046x8000
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x8192.size a
  hwx0_0 : ∀ i : grid0.Coords, EltTy.bits .bf16 = 32 ∨ (Rect.block (s := S16384x8192) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x8192.size a
  hwx0_1 : ∀ i : grid0.Coords, EltTy.bits .bf16 = 32 ∨ (Rect.block (s := S8192x8192) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S16384x8192.size a
  hwx0_2 : ∀ i : grid0.Coords, EltTy.bits .f32 = 32 ∨ (Rect.block (s := S16384x8192) S1024x2048.size (cc0_transform_2 i) (hinb0_2 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_v3) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x2048x8192 : Shape := ⟨3, ![8, 2048, 8192]⟩
abbrev S8192x8000 : Shape := ⟨2, ![8192, 8000]⟩
abbrev S8x2046x8192 : Shape := ⟨3, ![8, 2046, 8192]⟩
abbrev S8x2046x8000 : Shape := ⟨3, ![8, 2046, 8000]⟩

abbrev nBuf : Space → Nat
  | .hbm => 4
  | .vmem => 0
  | .smem => 0
  | _ => 0

abbrev bufTy : (tb : Table) → Fin (tcTables nBuf tb) → BufTy
  | .hbm, ⟨0, _⟩ => ⟨S8x2048x8192, .f32⟩
  | .hbm, ⟨1, _⟩ => ⟨S8192x8000, .f32⟩
  | .hbm, ⟨2, _⟩ => ⟨S8x2046x8192, .f32⟩
  | .hbm, ⟨3, _⟩ => ⟨S8x2046x8000, .f32⟩
  | _, _ => ⟨S8x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  slices_S8x2048x8192_S8x2046x8192_0_1_0 : S8x2048x8192.Slices ![0, 1, 0] S8x2046x8192
  dot_S8x2046x8192_S8192x8000_S8x2046x8000_2_0_01_1_n_n_wf : DotDims.WF S8x2046x8192 S8192x8000 S8x2046x8000 [2] [0] [0, 1] [1] [] []

variable [Facts₀]

def dot_S8x2046x8192_S8192x8000_S8x2046x8000_2_0_01_1_n_n : DotDims S8x2046x8192 S8192x8000 S8x2046x8000 where
  lhsContracting := [2]
  rhsContracting := [0]
  lhsNonContracting := [0, 1]
  rhsNonContracting := [1]
  lhsBatch := []
  rhsBatch := []
  wf := dot_S8x2046x8192_S8192x8000_S8x2046x8000_2_0_01_1_n_n_wf

class Facts : Prop extends Facts₀ where

variable [Facts]
-- ==== Proof.Body.lean ====
import proofs.«122933_j18124761989510_2_alg».proof.Defs
import proofs.«122933_j18124761989510_2_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

/-!
# One grid point of the blocked matrix product

At a grid point the body holds a [1024, 512] block `x0` of the left matrix, a [512, 2048] block `x1` of the
right matrix, and the [1024, 2048] accumulator `xs` it carries from one point to the next. It leaves
`xs + x0 · x1` in the accumulator (over the zero block at the first point of a run of sixteen), and at
the last point of the run copies the accumulator into the output block. This module reads what each of the three
control cases leaves as that one term, and then reads the term at an entry: over the extended reals entry
`(p, q)` of `xs + x0 · x1` is `xs p q + ∑ j, x0 p j * x1 j q`.
-/

noncomputable section

open Idealize.ShloMosaic Idealize.ShloMosaic.TcCoe Idealize.SL.Sem
open Idealize.ShloMosaic.ValueIdx

namespace Cert.KernelIdeal.Body
open Cert.KernelIdeal Cert.KernelIdeal.Gen

section AnyValues
variable {F : FTy → Type} [FloatOps F]

theorem hz : (![0, 0] : Fin 2 → Nat) = fun _ => 0 := funext fun a => by fin_cases a <;> rfl

/-- A middle point of a run (neither first nor last): the accumulator ends at `xs + x0 · x1`. -/
theorem sout_B (c : Dev nD) (i : grid0.Coords) (a3 : Memref sig .tc .vmem S1024x512 .bf16) (h3 : a3.IsWhole)
    (a4 : Memref sig .tc .vmem S512x2048 .bf16) (h4 : a4.IsWhole) (a5 : Memref sig .tc .vmem S1024x2048 .f32) (h5 : a5.IsWhole)
    (a6 : Memref sig .tc .vmem S1024x2048 .f32) (h6 : a6.IsWhole) (hc0 : ¬cond0_0 i) (hc1 : ¬cond0_1 i)
    (x0 : Vec F S1024x512 .bf16) (x1 : Vec F S512x2048 .bf16) (xs : Vec F S1024x2048 .f32) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero hz]
  simp only [View.readAt_eq_ld, h3.read_unread, h4.read_unread, h6.read_unread, View.ld_unit_zero (S := S1024x2048) hz, View.ld_unit_zero (S := S1024x512) hz, View.ld_unit_zero (S := S512x2048) hz]

/-- The first point of a run: the accumulator is set to the zero block and then ends at `0 + x0 · x1`. -/
theorem sout_A (c : Dev nD) (i : grid0.Coords) (a3 : Memref sig .tc .vmem S1024x512 .bf16) (h3 : a3.IsWhole)
    (a4 : Memref sig .tc .vmem S512x2048 .bf16) (h4 : a4.IsWhole) (a5 : Memref sig .tc .vmem S1024x2048 .f32) (h5 : a5.IsWhole)
    (a6 : Memref sig .tc .vmem S1024x2048 .f32) (h6 : a6.IsWhole) (hc0 : cond0_0 i) (hc1 : ¬cond0_1 i)
    (x0 : Vec F S1024x512 .bf16) (x1 : Vec F S512x2048 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x2048) hz, View.readCov_unit_zero (S := S1024x2048) _ hz]
  simp only [View.readAt_eq_ld, h3.read_unread, h4.read_unread, h6.read_unread, View.ld_unit_zero (S := S1024x2048) hz, View.ld_unit_zero (S := S1024x512) hz, View.ld_unit_zero (S := S512x2048) hz]

/-- The last point of a run: the accumulator ends at `xs + x0 · x1` … -/
theorem sout_C (c : Dev nD) (i : grid0.Coords) (a3 : Memref sig .tc .vmem S1024x512 .bf16) (h3 : a3.IsWhole)
    (a4 : Memref sig .tc .vmem S512x2048 .bf16) (h4 : a4.IsWhole) (a5 : Memref sig .tc .vmem S1024x2048 .f32) (h5 : a5.IsWhole)
    (a6 : Memref sig .tc .vmem S1024x2048 .f32) (h6 : a6.IsWhole) (hc0 : ¬cond0_0 i) (hc1 : cond0_1 i)
    (x0 : Vec F S1024x512 .bf16) (x1 : Vec F S512x2048 .bf16) (xs : Vec F S1024x2048 .f32) :
    sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1024x2048) hz, View.ld_unit_zero (S := S1024x512) hz, View.ld_unit_zero (S := S512x2048) hz]

/-- … and the output block is a copy of it. -/
theorem out_C (c : Dev nD) (i : grid0.Coords) (a3 : Memref sig .tc .vmem S1024x512 .bf16) (h3 : a3.IsWhole)
    (a4 : Memref sig .tc .vmem S512x2048 .bf16) (h4 : a4.IsWhole) (a5 : Memref sig .tc .vmem S1024x2048 .f32) (h5 : a5.IsWhole)
    (a6 : Memref sig .tc .vmem S1024x2048 .f32) (h6 : a6.IsWhole) (hc0 : ¬cond0_0 i) (hc1 : cond0_1 i)
    (x0 : Vec F S1024x512 .bf16) (x1 : Vec F S512x2048 .bf16) (xs : Vec F S1024x2048 .f32) :
    out0_C_2 c i a3 h3 a4 h4 a5 h5 a6 h6 hc0 hc1 x0 x1 xs = k0_pay2 xs x0 x1 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1024x2048) _ hz]
  simp only [View.readAt_eq_ld, h3.read_unread, h4.read_unread, h6.read_unread, View.ld_unit_zero (S := S1024x2048) hz, View.ld_unit_zero (S := S1024x512) hz, View.ld_unit_zero (S := S512x2048) hz]

end AnyValues

/-! ## The term at an entry, over the extended reals -/

local notation "DD" => dot_S1024x512_S512x2048_S1024x2048_1_0_0_1_n_n

/-- The zero block is zero at every entry. -/
theorem pay1_apply (j : S1024x2048.Idx) : k0_pay1 (F := Ideal) j = 0 := by
  unfold k0_pay1
  simp only [shapeCast_self]
  show Ideal.ofBits .f32 0x00000000#32 = 0
  exact Ideal.ofBits_zero_f32

/-- The left factor of the block product at output entry `i` is in row `i 0`, -/
theorem lhs_row (i : S1024x2048.Idx) (k : (DD).contr.Idx) : ((DD).lhsIdx i k 0).val = (i 0).val := by
  unfold DotDims.lhsIdx
  rw [dif_neg (show ¬(0 : Fin S1024x512.rank) ∈ (DD).lhsBatch by decide), dif_pos (show (0 : Fin S1024x512.rank) ∈ (DD).lhsNonContracting by decide)]
  rfl
/-- and the right factor in column `i 1`. -/
theorem rhs_col (i : S1024x2048.Idx) (k : (DD).contr.Idx) : ((DD).rhsIdx i k 1).val = (i 1).val := by
  unfold DotDims.rhsIdx
  rw [dif_neg (show ¬(1 : Fin S512x2048.rank) ∈ (DD).rhsBatch by decide), dif_pos (show (1 : Fin S512x2048.rank) ∈ (DD).rhsNonContracting by decide)]
  rfl

/-- Entry `(p, q)` of `xs + x0 · x1`: the accumulator's entry plus the inner product of row `p` of `x0` with
    column `q` of `x1`. -/
theorem pay2_apply (xs : Vec Ideal S1024x2048 .f32) (x0 : Vec Ideal S1024x512 .bf16) (x1 : Vec Ideal S512x2048 .bf16)
    (p : Fin 1024) (q : Fin 2048) :
    k0_pay2 (F := Ideal) xs x0 x1 (ix2 p q) = xs (ix2 p q) + ∑ j : Fin 512, x0 (ix2 p j) * x1 (ix2 j q) := by
  unfold k0_pay2
  simp only [shapeCast_self]
  show xs (ix2 p q) + FloatOps.matmul (F := Ideal) DD none x0 x1 (constant (F := Ideal) S1024x2048 .f32 0x00000000#32) (ix2 p q) = _
  congr 1
  refine (Ideal.matmul_constant_zero_apply (φ₁ := .bf16) (φ₂ := .bf16) DD none x0 x1 (ix2 p q)).trans ?_
  rw [← Equiv.sum_comp (ValueIdx.contrEquiv1 DD 512 rfl rfl).symm]
  refine Finset.sum_congr rfl fun k _ => ?_
  have hk := ValueIdx.contrEquiv1_symm_val DD 512 rfl rfl k
  have el : (DD).lhsIdx (ix2 p q) ((ValueIdx.contrEquiv1 DD 512 rfl rfl).symm k) = ix2 p k := funext fun a => Fin.ext (by
    match a with
    | ⟨0, _⟩ => exact lhs_row _ _
    | ⟨1, _⟩ => exact ((DD).lhsIdx_val_of_single rfl _ _).trans hk)
  have er : (DD).rhsIdx (ix2 p q) ((ValueIdx.contrEquiv1 DD 512 rfl rfl).symm k) = ix2 k q := funext fun a => Fin.ext (by
    match a with
    | ⟨0, _⟩ => exact ((DD).rhsIdx_val_of_single rfl _ _).trans hk
    | ⟨1, _⟩ => exact rhs_col _ _)
  rw [el, er]

end Cert.KernelIdeal.Body

end
-- ==== Proof.Acc.lean ====
import proofs.«122933_j18124761989510_2_alg».proof.Defs
import proofs.«122933_j18124761989510_2_alg».proof.Proof.Gen.KernelIdeal.Frame
import proofs.«122933_j18124761989510_2_alg».proof.Proof.Body
import Idealize.ShloMosaic.Lib.Pipeline.Value
import Idealize.ShloMosaic.Lib.ValueIdx

/-!
# The accumulator along a run of sixteen grid points

The grid is 16 × 4 × 16: point `t` has block row `t / 64`, block column `t / 16 % 4` and reduction step
`t % 16`. At `t` the body reads the [1024, 512] block (t / 64, t % 16) of the left matrix `a` [16384, 8192] and
the [512, 2048] block (t % 16, t / 16 % 4) of the right matrix `b` [8192, 8192], and adds their product into the
accumulator, which is reset where `t % 16 = 0`. So after point `t` entry (p, q) of the accumulator is the sum over
the reduction steps `s ≤ t % 16` of the inner product of row `1024 (t / 64) + p` of `a`, columns `512 s … 512 s + 511`,
with the matching rows of column `2048 (t / 16 % 4) + q` of `b` — by induction on the point.

The two matrices are read through total functions on pairs of naturals (zero outside the matrix), so that the
partial sums range over `Finset.range` with no bound to carry.
-/

noncomputable section

open Idealize.ShloMosaic Idealize.ShloMosaic.TcCoe Idealize.SL.Sem
open Idealize.ShloMosaic.ValueIdx

namespace Cert.KernelIdeal.Acc
open Cert.KernelIdeal Cert.KernelIdeal.Gen Cert.KernelIdeal.Body

variable (m : (ℓ : Loc nD τ sig) → Buf (Elt Ideal) ℓ) (c : Dev nD)

/-- The left matrix as the region finds it, at row `r` and column `v` (zero outside). -/
def aN (r v : ℕ) : EReal :=
  if h : r < 16384 ∧ v < 8192 then (V m c main_v3 : S16384x8192.Idx → EReal) (ix2 ⟨r, h.1⟩ ⟨v, h.2⟩) else 0
/-- The right matrix as the region finds it, at row `v` and column `w` (zero outside). -/
def bN (v w : ℕ) : EReal :=
  if h : v < 8192 ∧ w < 8192 then (V m c main_v5 : S8192x8192.Idx → EReal) (ix2 ⟨v, h.1⟩ ⟨w, h.2⟩) else 0

/-- The three index maps over the grid: (t / 64, t % 16), (t % 16, t / 16 % 4) and (t / 64, t / 16 % 4). -/
theorem idx_facts : ∀ t : Fin cfg0.N, win0_0.index t (0 : Fin 2) = t.val / 64 ∧ win0_0.index t (1 : Fin 2) = t.val % 16
    ∧ win0_1.index t (0 : Fin 2) = t.val % 16 ∧ win0_1.index t (1 : Fin 2) = t.val / 16 % 4
    ∧ win0_2.index t (0 : Fin 2) = t.val / 64 ∧ win0_2.index t (1 : Fin 2) = t.val / 16 % 4 :=
  (by decide +kernel : ∀ t : Fin grid0.N, _)

/-- Entry (p, j) of the left block at point `t`. -/
theorem blk0 (t : Fin cfg0.N) (p : Fin 1024) (j : Fin 512) :
    (iblk m c 0 t : Vec Ideal S1024x512 .bf16) (ix2 p j) = aN m c (1024 * (t.val / 64) + p.val) (512 * (t.val % 16) + j.val) := by
  have hN : t.val < 1024 := lt_of_lt_of_eq t.isLt (show cfg0.N = 1024 from N_0)
  obtain ⟨e0, e1, -, -, -, -⟩ := idx_facts t
  unfold aN
  rw [dif_pos ⟨by omega, by omega⟩]
  unfold iblk
  rw [View.read_apply]
  show V m c main_v3 _ = V m c main_v3 _
  congr 1
  funext a
  apply Fin.ext
  match a with
  | ⟨0, _⟩ => show win0_0.index t 0 * 1024 + 1 * p.val = 1024 * (t.val / 64) + p.val; rw [e0]; omega
  | ⟨1, _⟩ => show win0_0.index t 1 * 512 + 1 * j.val = 512 * (t.val % 16) + j.val; rw [e1]; omega

/-- Entry (j, q) of the right block at point `t`. -/
theorem blk1 (t : Fin cfg0.N) (j : Fin 512) (q : Fin 2048) :
    (iblk m c 1 t : Vec Ideal S512x2048 .bf16) (ix2 j q) = bN m c (512 * (t.val % 16) + j.val) (2048 * (t.val / 16 % 4) + q.val) := by
  have hN : t.val < 1024 := lt_of_lt_of_eq t.isLt (show cfg0.N = 1024 from N_0)
  obtain ⟨-, -, e0, e1, -, -⟩ := idx_facts t
  unfold bN
  rw [dif_pos ⟨by omega, by omega⟩]
  unfold iblk
  rw [View.read_apply]
  show V m c main_v5 _ = V m c main_v5 _
  congr 1
  funext a
  apply Fin.ext
  match a with
  | ⟨0, _⟩ => show win0_1.index t 0 * 512 + 1 * j.val = 512 * (t.val % 16) + j.val; rw [e0]; omega
  | ⟨1, _⟩ => show win0_1.index t 1 * 2048 + 1 * q.val = 2048 * (t.val / 16 % 4) + q.val; rw [e1]; omega

/-- The product of tile `s` of block row `i0` with tile `s` of block column `i1`, at entry (p, q). -/
def tile (i0 i1 s : ℕ) (p : Fin 1024) (q : Fin 2048) : EReal :=
  ∑ j : Fin 512, aN m c (1024 * i0 + p.val) (512 * s + j.val) * bN m c (512 * s + j.val) (2048 * i1 + q.val)

/-- One point's step at an entry: the accumulator's entry plus the point's tile product. -/
theorem step_entry (t : Fin cfg0.N) (xs : Vec Ideal S1024x2048 .f32) (p : Fin 1024) (q : Fin 2048) :
    k0_pay2 (F := Ideal) xs (iblk m c 0 t) (iblk m c 1 t) (ix2 p q)
      = xs (ix2 p q) + tile m c (t.val / 64) (t.val / 16 % 4) (t.val % 16) p q := by
  refine (pay2_apply xs (iblk m c 0 t) (iblk m c 1 t) p q).trans ?_
  congr 1
  unfold tile
  refine Finset.sum_congr rfl fun j _ => ?_
  rw [blk0 m c t p j, blk1 m c t j q]

/-- The accumulator after point `n`: the tile products of the reduction steps `0 … n % 16` of its run, summed. -/
theorem acc_eq : ∀ (n : ℕ) (h : n < cfg0.N) (p : Fin 1024) (q : Fin 2048),
    (outsAt0 m c n h).2 (ix2 p q) = ∑ s ∈ Finset.range (n % 16 + 1), tile m c (n / 64) (n / 16 % 4) s p q
  | 0, h, p, q => by
    rw [outsAt0_A m c ⟨0, h⟩ rfl (by show ¬(0 : ℕ) % 16 = 15; decide)]
    dsimp only
    rw [sout_A]
    refine (step_entry m c ⟨0, h⟩ _ p q).trans ?_
    rw [pay1_apply, zero_add]
    simp
  | n + 1, h, p, q => by
    have hN : n + 1 < 1024 := lt_of_lt_of_eq h (show cfg0.N = 1024 from N_0)
    by_cases h0 : (n + 1) % 16 = 0
    · have h1 : ¬(n + 1) % 16 = 15 := by omega
      rw [outsAt0_A m c ⟨n + 1, h⟩ h0 h1]
      dsimp only
      rw [sout_A]
      refine (step_entry m c ⟨n + 1, h⟩ _ p q).trans ?_
      rw [pay1_apply, zero_add]
      dsimp only
      rw [h0]
      simp
    · have ih := acc_eq n (Nat.lt_of_succ_lt h) p q
      have e1 : (n + 1) / 64 = n / 64 := by omega
      have e2 : (n + 1) / 16 % 4 = n / 16 % 4 := by omega
      have e3 : (n + 1) % 16 = n % 16 + 1 := by omega
      by_cases h1 : (n + 1) % 16 = 15
      · rw [outsAt0_C m c ⟨n + 1, h⟩ h0 h1]
        dsimp only
        rw [sout_C]
        refine (step_entry m c ⟨n + 1, h⟩ _ p q).trans ?_
        show (outsAt0 m c n _).2 (ix2 p q) + _ = _
        rw [ih, e1, e2, e3, Finset.sum_range_succ _ (n % 16 + 1)]
      · rw [outsAt0_B m c ⟨n + 1, h⟩ h0 h1]
        dsimp only
        rw [sout_B]
        refine (step_entry m c ⟨n + 1, h⟩ _ p q).trans ?_
        show (outsAt0 m c n _).2 (ix2 p q) + _ = _
        rw [ih, e1, e2, e3, Finset.sum_range_succ _ (n % 16 + 1)]

end Cert.KernelIdeal.Acc
end
-- ==== Proof.Prefix.lean ====
import proofs.«122933_j18124761989510_2_alg».proof.Defs
import proofs.«122933_j18124761989510_2_alg».proof.Proof.Gen.KernelIdeal.Frame
import Idealize.ShloMosaic.Lib.Pipeline.Value
import Idealize.ShloMosaic.Lib.ValueIdx
import Idealize.ShloMosaic.Lib.KernelVsHost
import Idealize.ShloMosaic.Lib.StableHlo.Run

/-!
# The two matrices the region multiplies, as functions of the arguments

Before the region the program drops the first and last row of each of the 8 planes of `x` [8, 2048, 8192],
flattens the 8 × 2046 rows to 16368, pads to 16384 rows, and pads the [8192, 8000] matrix to 8192 columns.
Read at an entry outside the padding these are entries of the arguments; the padding itself is never needed,
because the rows and columns it produces are cut away again after the region.
-/

noncomputable section

open Idealize.ShloMosaic Idealize.ShloMosaic.TcCoe Idealize.SL.Sem
open Idealize.ShloMosaic.ValueIdx

namespace Cert.KernelIdeal.Prefix
open Cert.KernelIdeal Cert.KernelIdeal.Gen

variable (m : (ℓ : Loc nD τ sig) → Buf (Elt Ideal) ℓ)

/-- The left matrix the region is launched on: the argument's rows 1 … 2046 of each of its 8 planes, laid out as
    16368 rows, 16 rows of padding below (a change of float format is the identity on the extended reals). -/
theorem lhs_array (c : Dev nD) :
    (V m c main_v3 : S16384x8192.Idx → EReal) =
      truncf (F := Ideal) .bf16 (pad S16384x8192 ![0, 0] ![16, 0] ![0, 0]
        (shapeCast S16368x8192 (extractStridedSlice S8x2046x8192 ![0, 1, 0] (m ((c : Thread nD τ).loc main_arg0)) slices_S8x2048x8192_S8x2046x8192_0_1_0) shapeCasts_S8x2046x8192_S16368x8192)
        (sitofp (F := Ideal) .f32 (constantI S_ 32 0#32)) pads_S16368x8192_S16384x8192_0160_000 h_S_) bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The right matrix the region is launched on: the second argument with 192 columns of padding on the right. -/
theorem rhs_array (c : Dev nD) :
    (V m c main_v5 : S8192x8192.Idx → EReal) =
      truncf (F := Ideal) .bf16 (pad S8192x8192 ![0, 0] ![0, 192] ![0, 0] (m ((c : Thread nD τ).loc main_arg1))
        (sitofp (F := Ideal) .f32 (constantI S_ 32 0#32)) pads_S8192x8000_S8192x8192_000_01920 h_S_) bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- Above the padding, row `r` of the left matrix is row `r % 2046 + 1` of plane `r / 2046` of the argument. -/
theorem lhs_entry (c : Dev nD) (r : Fin 16384) (v : Fin 8192) (hr : r.val < 16368) :
    (V m c main_v3 : S16384x8192.Idx → EReal) (ix2 r v)
      = (m ((c : Thread nD τ).loc main_arg0) : S8x2048x8192.Idx → EReal)
          (ix3 (⟨r.val / 2046, by omega⟩ : Fin 8) (⟨r.val % 2046 + 1, by omega⟩ : Fin 2048) v) := by
  rw [lhs_array]
  refine (truncf_apply (φ := .f32) (ψ := .bf16) _ bitsLt_bf16_f32 _).trans ?_
  refine (pad_apply_of_inside _ _ _ _ _ pads_S16368x8192_S16384x8192_0160_000 h_S_ (ix2 r v)
    (ix2 (⟨r.val, hr⟩ : Fin 16368) v) (fun a => by
      match a with
      | ⟨0, _⟩ => show r.val = 0 + r.val * (0 + 1); omega
      | ⟨1, _⟩ => show v.val = 0 + v.val * (0 + 1); omega)).trans ?_
  refine (shapeCast_apply _ shapeCasts_S8x2046x8192_S16368x8192 (ix2 (⟨r.val, hr⟩ : Fin 16368) v)
    (ix3 (⟨r.val / 2046, by omega⟩ : Fin 8) (⟨r.val % 2046, Nat.mod_lt _ (by decide)⟩ : Fin 2046) v) (by
      rw [Shape.rowMajor_val_three, Shape.rowMajor_val_two]
      show (r.val / 2046 * 2046 + r.val % 2046) * 8192 + v.val = r.val * 8192 + v.val
      have := Nat.div_add_mod r.val 2046
      rw [Nat.mul_comm] at this
      rw [this])).trans ?_
  exact extractStridedSlice_apply _ _ slices_S8x2048x8192_S8x2046x8192_0_1_0 _ _ (fun a => by
    match a with
    | ⟨0, _⟩ => show r.val / 2046 = 0 + r.val / 2046; omega
    | ⟨1, _⟩ => show r.val % 2046 + 1 = 1 + r.val % 2046; omega
    | ⟨2, _⟩ => show v.val = 0 + v.val; omega)

/-- Left of the padding, the right matrix is the second argument. -/
theorem rhs_entry (c : Dev nD) (v : Fin 8192) (w : Fin 8192) (hw : w.val < 8000) :
    (V m c main_v5 : S8192x8192.Idx → EReal) (ix2 v w)
      = (m ((c : Thread nD τ).loc main_arg1) : S8192x8000.Idx → EReal) (ix2 v (⟨w.val, hw⟩ : Fin 8000)) := by
  rw [rhs_array]
  refine (truncf_apply (φ := .f32) (ψ := .bf16) _ bitsLt_bf16_f32 _).trans ?_
  exact pad_apply_of_inside _ _ _ _ _ pads_S8192x8000_S8192x8192_000_01920 h_S_ (ix2 v w)
    (ix2 v (⟨w.val, hw⟩ : Fin 8000)) (fun a => by
      match a with
      | ⟨0, _⟩ => show v.val = 0 + v.val * (0 + 1); omega
      | ⟨1, _⟩ => show w.val = 0 + w.val * (0 + 1); omega)

end Cert.KernelIdeal.Prefix
end
-- ==== Proof.TileSum.lean ====
import Mathlib.Algebra.BigOperators.Group.Finset.Basic
import Mathlib.Algebra.BigOperators.Fin

/-!
# A sum cut into tiles

In a commutative monoid a sum over `n * K` consecutive naturals is the sum, over `n` tiles of `K`
consecutive naturals each, of the tiles' sums: only associativity is used, so it holds on the extended
reals with no finiteness hypothesis.
-/

namespace Cert.TileSum

/-- `∑ s < n, ∑ j < K, f (K s + j) = ∑ v < n K, f v`. -/
theorem sum_tiles {M : Type*} [AddCommMonoid M] (K : ℕ) (f : ℕ → M) :
    ∀ n : ℕ, ∑ s ∈ Finset.range n, ∑ j ∈ Finset.range K, f (K * s + j) = ∑ v ∈ Finset.range (n * K), f v
  | 0 => by simp
  | n + 1 => by
    rw [Finset.sum_range_succ, sum_tiles K f n, Nat.succ_mul, Finset.sum_range_add, Nat.mul_comm K n]

/-- The same with the inner sum and the whole sum over `Fin`. -/
theorem sum_tiles_fin {M : Type*} [AddCommMonoid M] (K n : ℕ) (f : ℕ → M) :
    ∑ s ∈ Finset.range n, ∑ j : Fin K, f (K * s + j.val) = ∑ v : Fin (n * K), f v.val := by
  rw [← Finset.sum_range (fun v => f v), ← sum_tiles K f n]
  refine Finset.sum_congr rfl fun s _ => ?_
  exact (Finset.sum_range (fun j => f (K * s + j))).symm

end Cert.TileSum
-- ==== Proof.Spec.lean ====
import Idealize.ShloMosaic.PureOps.Ideal
import Idealize.ShloMosaic.Lib.ValueIdx

/-!
# The function both programs compute

For `x` of shape [8, 2048, 8192] and `w` of shape [8192, 8000] over the extended reals, the result has shape
[8, 2046, 8000]: entry (s, p, n) is the inner product of row `p + 1` of plane `s` of `x` (the first and the last
row of each plane are dropped) with column `n` of `w`.
-/

noncomputable section

open Idealize.ShloMosaic Idealize.ShloMosaic.ValueIdx

namespace Cert.Spec

/-- Entry (s, p, n) of the result: `∑ v, x s (p + 1) v * w v n`. -/
def translate (x : (⟨3, ![8, 2048, 8192]⟩ : Shape).Idx → EReal) (w : (⟨2, ![8192, 8000]⟩ : Shape).Idx → EReal) :
    (⟨3, ![8, 2046, 8000]⟩ : Shape).Idx → EReal := fun i =>
  ∑ v : Fin 8192, x (ix3 (i 0) (⟨(i 1).val + 1, by have h : (i 1).val < 2046 := (i 1).isLt; show (i 1).val + 1 < 2048; omega⟩ : Fin 2048) v) * w (ix2 v (i 2))

end Cert.Spec

end
-- ==== Proof.Result.lean ====
import proofs.«122933_j18124761989510_2_alg».proof.Defs
import proofs.«122933_j18124761989510_2_alg».proof.Proof.Gen.KernelIdeal.Frame
import proofs.«122933_j18124761989510_2_alg».proof.Proof.Acc
import proofs.«122933_j18124761989510_2_alg».proof.Proof.Prefix
import proofs.«122933_j18124761989510_2_alg».proof.Proof.TileSum
import proofs.«122933_j18124761989510_2_alg».proof.Proof.Spec
import Idealize.ShloMosaic.Lib.Pipeline.Value
import Idealize.ShloMosaic.Lib.ValueIdx
import Idealize.ShloMosaic.Lib.StableHlo.Run

/-!
# From the accumulator to the program's result

The last point of each run of sixteen writes its [1024, 2048] block of the [16384, 8192] output matrix back, and
the 16 × 4 blocks tile the matrix: the region leaves the whole product there. The program then keeps rows
0 … 16367 and columns 0 … 7999 and reshapes to [8, 2046, 8000]. Those entries only involve rows of the left
matrix and columns of the right matrix that come from the arguments, and the sixteen tiles of the contraction
join into one sum of 8192 terms: the result is the specification.
-/

noncomputable section

open Idealize.ShloMosaic Idealize.ShloMosaic.TcCoe Idealize.SL.Sem
open Idealize.ShloMosaic.Pipeline (Dat)
open Idealize.ShloMosaic.ValueIdx

namespace Cert.KernelIdeal.Result
open Cert.KernelIdeal Cert.KernelIdeal.Gen Cert.KernelIdeal.Body Cert.KernelIdeal.Acc

variable (m : (ℓ : Loc nD τ sig) → Buf (Elt Ideal) ℓ) (ρ : Dev nD → PrngReg)

/-- The two arguments and the two matrices the region is launched on, as functions on indices. -/
abbrev argX (c : Dev nD) : S8x2048x8192.Idx → EReal := m ((c : Thread nD τ).loc main_arg0)
abbrev argW (c : Dev nD) : S8192x8000.Idx → EReal := m ((c : Thread nD τ).loc main_arg1)
abbrev matA (c : Dev nD) : S16384x8192.Idx → EReal := V m c main_v3
abbrev matB (c : Dev nD) : S8192x8192.Idx → EReal := V m c main_v5

/-- The product of the two matrices, the contraction grouped in sixteen tiles of 512. -/
def prod (c : Dev nD) : S16384x8192.Idx → EReal := fun i =>
  ∑ s ∈ Finset.range 16, ∑ j : Fin 512, aN m c (i 0).val (512 * s + j.val) * bN m c (512 * s + j.val) (i 1).val

/-- The accumulator after point `n`, at any entry. -/
theorem acc_at (c : Dev nD) (n : ℕ) (h : n < cfg0.N) (y : S1024x2048.Idx) :
    (outsAt0 m c n h).2 y = ∑ s ∈ Finset.range (n % 16 + 1), tile m c (n / 64) (n / 16 % 4) s (y 0) (y 1) := by
  exact (congrArg (outsAt0 m c n h).2 (eq_ix2 y)).trans (acc_eq m c n h (y 0) (y 1))

/-- At the last point of a run the output block is the accumulator. -/
theorem out_eq_acc (c : Dev nD) (t : Fin cfg0.N) (h0 : ¬t.val % 16 = 0) (h15 : t.val % 16 = 15) :
    (outsAt0 m c t.val t.isLt).1 = (outsAt0 m c t.val t.isLt).2 := by
  rw [outsAt0_C m c t h0 h15]
  dsimp only
  rw [out_C, sout_C]

/-- What a last point of a run writes back is its block of the product: all sixteen tiles are in. -/
theorem flushed_eq (c : Dev nD) (t : Fin cfg0.N) (hf : (cfg0.win 2).flush t = true) :
    (dats m 0 c).flushed 2 t = ((cfg0.win 2).blk t).view.read (Elt Ideal) (prod m c) := by
  have h15 : t.val % 16 = 15 := (flush0_2 t).mp hf
  have h0 : ¬t.val % 16 = 0 := by omega
  obtain ⟨-, -, -, -, e0, e1⟩ := idx_facts t
  show (cfg0.win 2).cut (grid0.coords t) ((dats m 0 c).after 2 t) = _
  rw [after0_2, out_eq_acc m c t h0 h15]
  funext y
  show (outsAt0 m c t.val t.isLt).2 y = _
  refine (acc_at m c t.val t.isLt y).trans ?_
  rw [h15, View.read_apply]
  unfold prod tile
  have a0 : (((cfg0.win 2).blk t).view.emb y 0).val = 1024 * (t.val / 64) + (y 0).val := by
    show win0_2.index t 0 * 1024 + 1 * (y 0).val = _; rw [e0]; omega
  have a1 : (((cfg0.win 2).blk t).view.emb y 1).val = 2048 * (t.val / 16 % 4) + (y 1).val := by
    show win0_2.index t 1 * 2048 + 1 * (y 1).val = _; rw [e1]; omega
  dsimp only
  rw [a0, a1]
  rfl

/-- An index of the output matrix lies in point `t`'s block iff each coordinate lies in the block's range. -/
theorem mem_blk (t : Fin cfg0.N) (i : S16384x8192.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v6).slice (win0_2.rect t)).set ↔ _
  rw [View.set_slice_whole, Rect.mem_set_unit]
  exact Iff.rfl

/-- Entry (r, n) of the output matrix is written back by the last point of the run of block (r / 1024, n / 2048). -/
theorem cover (i : S16384x8192.Idx) :
    ∃ t : Fin cfg0.N, (cfg0.win 2).flush t = true ∧ i ∈ ((cfg0.win 2).blk t).view.set := by
  have hi0 : (i 0).val < 16384 := (i 0).isLt
  have hi1 : (i 1).val < 8192 := (i 1).isLt
  have hN : cfg0.N = 1024 := N_0
  obtain ⟨t, ht⟩ : ∃ t : Fin cfg0.N, t.val = 64 * ((i 0).val / 1024) + 16 * ((i 1).val / 2048) + 15 :=
    ⟨⟨64 * ((i 0).val / 1024) + 16 * ((i 1).val / 2048) + 15, by rw [hN]; omega⟩, rfl⟩
  obtain ⟨-, -, -, -, e0, e1⟩ := idx_facts t
  refine ⟨t, (flush0_2 t).mpr (by omega), ?_⟩
  rw [mem_blk]
  intro a
  match a with
  | ⟨0, _⟩ => show win0_2.index t (0 : Fin 2) * 1024 ≤ (i 0).val ∧ (i 0).val < win0_2.index t (0 : Fin 2) * 1024 + 1024; rw [e0]; omega
  | ⟨1, _⟩ => show win0_2.index t (1 : Fin 2) * 2048 ≤ (i 1).val ∧ (i 1).val < win0_2.index t (1 : Fin 2) * 2048 + 2048; rw [e1]; omega

/-- So the region leaves the product in its output matrix. -/
theorem final (c : Dev nD) : (dats m 0 c).arrAt 2 cfg0.N = prod m c :=
  (dats m 0 c).arrAt_eq_of_cover 2 (prod m c) (flushed_eq m c) cover

/-- After the region the padding is cut away and the 16368 rows are laid out as 8 planes of 2046. -/
theorem tail_eq (c : Dev nD) :
    Pipeline.afterTail₀ cfgs (dats m) 0 (V0 m) [hostOps1] c main_v8
      = shapeCast S8x2046x8000 (extractStridedSlice S16368x8000 ![0, 0] (prod m c) slices_S16384x8192_S16368x8000_0_0) shapeCasts_S16368x8000_S8x2046x8000 := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.tc.devRef main_v6) = prod m c :=
    (Pipeline.withArrays_arr spec0 launch0.win.arr_inj c _ _ 2).trans (final m c)
  rw [e]
  rfl

/-- Outside the padding an entry of the product is the plain sum of 8192 products of the arguments' entries:
    the sixteen tiles' sums joined into one, the matrices read as the arguments. -/
theorem prod_entry (c : Dev nD) (r : Fin 16384) (w : Fin 8192) (hr : r.val < 16368) (hw : w.val < 8000) :
    prod m c (ix2 r w)
      = ∑ v : Fin 8192, argX m c (ix3 (⟨r.val / 2046, by omega⟩ : Fin 8) (⟨r.val % 2046 + 1, by omega⟩ : Fin 2048) v)
          * argW m c (ix2 v (⟨w.val, hw⟩ : Fin 8000)) := by
  unfold prod
  show ∑ s ∈ Finset.range 16, ∑ j : Fin 512, aN m c r.val (512 * s + j.val) * bN m c (512 * s + j.val) w.val = _
  refine (Cert.TileSum.sum_tiles_fin 512 16 (fun v => aN m c r.val v * bN m c v w.val)).trans ?_
  show ∑ v : Fin 8192, aN m c r.val v.val * bN m c v.val w.val = _
  refine Finset.sum_congr rfl fun v _ => ?_
  unfold aN bN
  rw [dif_pos ⟨r.isLt, v.isLt⟩, dif_pos ⟨v.isLt, w.isLt⟩]
  show matA m c (ix2 r v) * matB m c (ix2 v w) = _
  rw [show matA m c (ix2 r v) = argX m c (ix3 (⟨r.val / 2046, by omega⟩ : Fin 8) (⟨r.val % 2046 + 1, by omega⟩ : Fin 2048) v)
      from Cert.KernelIdeal.Prefix.lhs_entry m c r v hr,
    show matB m c (ix2 v w) = argW m c (ix2 v (⟨w.val, hw⟩ : Fin 8000)) from Cert.KernelIdeal.Prefix.rhs_entry m c v w hw]

/-- The program's result is the specification of its arguments: plane `s`, row `p` is row `2046 s + p` of the product. -/
theorem result_eq (c : Dev nD) :
    Pipeline.afterTail₀ cfgs (dats m) 0 (V0 m) [hostOps1] c main_v8
      = Cert.Spec.translate (m ((c : Thread nD τ).loc main_arg0)) (m ((c : Thread nD τ).loc main_arg1)) := by
  rw [tail_eq]
  funext i
  have h0 : (i 0).val < 8 := (i 0).isLt
  have h1 : (i 1).val < 2046 := (i 1).isLt
  have h2 : (i 2).val < 8000 := (i 2).isLt
  refine (shapeCast_apply _ shapeCasts_S16368x8000_S8x2046x8000 i
    (ix2 (⟨2046 * (i 0).val + (i 1).val, by omega⟩ : Fin 16368) (⟨(i 2).val, h2⟩ : Fin 8000)) (by
      rw [Shape.rowMajor_val_two, Shape.rowMajor_val_three]
      show (2046 * (i 0).val + (i 1).val) * 8000 + (i 2).val = ((i 0).val * 2046 + (i 1).val) * 8000 + (i 2).val
      omega)).trans ?_
  refine (extractStridedSlice_apply _ _ slices_S16384x8192_S16368x8000_0_0 _
    (ix2 (⟨2046 * (i 0).val + (i 1).val, by omega⟩ : Fin 16384) (⟨(i 2).val, by omega⟩ : Fin 8192)) (fun a => by
      match a with
      | ⟨0, _⟩ => show 2046 * (i 0).val + (i 1).val = 0 + (2046 * (i 0).val + (i 1).val); omega
      | ⟨1, _⟩ => show (i 2).val = 0 + (i 2).val; omega)).trans ?_
  refine (prod_entry m c _ _ (by show 2046 * (i 0).val + (i 1).val < 16368; omega) (by show (i 2).val < 8000; omega)).trans ?_
  unfold Cert.Spec.translate
  refine Finset.sum_congr rfl fun v _ => ?_
  have el : ix3 (⟨(2046 * (i 0).val + (i 1).val) / 2046, by omega⟩ : Fin 8) (⟨(2046 * (i 0).val + (i 1).val) % 2046 + 1, by omega⟩ : Fin 2048) v
      = ix3 (i 0) (⟨(i 1).val + 1, by omega⟩ : Fin 2048) v :=
    funext fun a => Fin.ext (by
      match a with
      | ⟨0, _⟩ => show (2046 * (i 0).val + (i 1).val) / 2046 = (i 0).val; omega
      | ⟨1, _⟩ => show (2046 * (i 0).val + (i 1).val) % 2046 + 1 = (i 1).val + 1; omega
      | ⟨2, _⟩ => rfl)
  have er : ix2 v (⟨(i 2).val, h2⟩ : Fin 8000) = ix2 v (i 2) :=
    funext fun a => Fin.ext (by
      match a with
      | ⟨0, _⟩ => rfl
      | ⟨1, _⟩ => rfl)
  show argX m c _ * argW m c _ = argX m c _ * argW m c _
  rw [el, er]
  rfl

/-- Every run ends with the result at the specification of the arguments, and the arguments unchanged. -/
theorem run : θ_run defs (onTc (τ := τ) (main (F := Ideal))) ⟨m, fun _ => 0, ρ⟩ fun r => ∀ c : Dev nD,
      r.2.mem ((c.tc : Thread nD τ).loc main_v8) = Cert.Spec.translate (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 (Pipeline.mem_restRefs_of main_v8 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Result
end
-- ==== Proof.RefSide.lean ====
import proofs.«122933_j18124761989510_2_alg».proof.Defs
import proofs.«122933_j18124761989510_2_alg».proof.Proof.Gen.ReferenceIdeal.Run
import proofs.«122933_j18124761989510_2_alg».proof.Proof.Gen.ReferenceIdeal.Read
import proofs.«122933_j18124761989510_2_alg».proof.Proof.Spec

/-!
# The reference computes the specification

The reference drops the first and last row of each plane of `x` and contracts the last axis with the first axis
of `w`: entry (s, p, n) of its result is `∑ k, x s (1 + p) k * w k n`, which is the specification's sum term by
term.
-/

noncomputable section

open Idealize.ShloMosaic Idealize.ShloMosaic.TcCoe Idealize.SL.Sem
open Idealize.ShloMosaic.ValueIdx

namespace Cert.ReferenceIdeal.RefValue
open Cert.ReferenceIdeal Cert.ReferenceIdeal.Read

/-- The reference's contraction of the sliced `x` with `w` is the specification. -/
theorem ref_eq (x0 : S8x2048x8192.Idx → EReal) (x1 : S8192x8000.Idx → EReal) :
    val_main_v1 (F := Ideal) x0 x1 = Cert.Spec.translate x0 x1 := by
  funext i
  rw [val_main_v1_apply]
  unfold Cert.Spec.translate
  refine Finset.sum_congr rfl fun k _ => ?_
  rw [val_main_v0_apply]
  have el : idx_main_v0 (lidx_main_v1 i k)
      = ix3 (i 0) (⟨(i 1).val + 1, by have h : (i 1).val < 2046 := (i 1).isLt; show (i 1).val + 1 < 2048; omega⟩ : Fin 2048) k :=
    funext fun a => Fin.ext (by
      match a with
      | ⟨0, _⟩ => rfl
      | ⟨1, _⟩ => show 1 + (i 1).val = (i 1).val + 1; omega
      | ⟨2, _⟩ => rfl)
  have er : ridx_main_v1 i k = ix2 k (i 2) :=
    funext fun a => Fin.ext (by
      match a with
      | ⟨0, _⟩ => rfl
      | ⟨1, _⟩ => rfl)
  rw [el, er]
  rfl

end Cert.ReferenceIdeal.RefValue

end
-- ==== Proof.lean ====
import proofs.«122933_j18124761989510_2_alg».proof.Defs
import proofs.«122933_j18124761989510_2_alg».proof.Proof.Gen.Kernel
import proofs.«122933_j18124761989510_2_alg».proof.Proof.Gen.Kernel.Frame
import proofs.«122933_j18124761989510_2_alg».proof.Proof.Gen.KernelIdeal
import proofs.«122933_j18124761989510_2_alg».proof.Proof.Gen.KernelIdeal.Frame
import proofs.«122933_j18124761989510_2_alg».proof.Proof.Gen.ReferenceIdeal
import proofs.«122933_j18124761989510_2_alg».proof.Proof.Gen.ReferenceIdeal.Run
import proofs.«122933_j18124761989510_2_alg».proof.Proof.Gen.ReferenceIdeal.Read
import proofs.«122933_j18124761989510_2_alg».proof.Proof.Gen.Pre_finite_inputs
import proofs.«122933_j18124761989510_2_alg».proof.Proof.Result
import proofs.«122933_j18124761989510_2_alg».proof.Proof.RefSide
import Idealize.ShloMosaic.Adequacy
import Idealize.ShloMosaic.Init

/-!
# The claim

A token translator: `x` [8, 2048, 8192] loses the first and last row of each plane and is multiplied by the
[8192, 8000] conversion matrix. The kernel pads both operands, multiplies them block by block — 1024 × 2048 output
blocks, each accumulated over sixteen 512-wide slices of the contraction — and cuts the padding away; the
reference contracts in one step. Over the extended reals both are the same sum of 8192 products at every entry,
grouped differently: addition there is associative and commutative, so no finiteness is needed.
-/

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the specification's array of arguments that agree. -/
theorem algebraic : Cert.algebraic_KernelIdeal_ReferenceIdeal := by
  intro m ρ m' ρ' _ hagree
  refine ⟨fun c => Cert.Spec.translate (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v1_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
